-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x256 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S128x128 : Shape := ⟨2, ![128, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 28
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S1x128, .f32⟩
  | .hbm, ⟨27, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S128x256_S128x128_0_0 : S128x256.Slices ![0, 0] S128x128
  slices_S128x256_S128x128_0_128 : S128x256.Slices ![0, 128] S128x128
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x256 : Shape := ⟨2, ![128, 256]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S100000x256 : Shape := ⟨2, ![100000, 256]⟩
abbrev S256x128 : Shape := ⟨2, ![256, 128]⟩
abbrev S1x128 : Shape := ⟨2, ![1, 128]⟩
abbrev S100000 : Shape := ⟨1, ![100000]⟩
abbrev S100000x1 : Shape := ⟨2, ![100000, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x256, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x256, .f32⟩
  | .hbm, ⟨23, _⟩ => ⟨S256x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000, .f32⟩
  | .hbm, ⟨31, _⟩ => ⟨S100000x1, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x128, .f32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.Spec.lean ====
/-
  The function both programs compute, stated once over the extended reals, row by row.

  A node's output row is the affine image of its own feature row and its aggregated neighbour row,
      y j = (∑ k, x k · Wx j k + ∑ k, n k · Wn j k) + b j,
  divided by max(√(∑ j, y j²), ε): the row scaled to unit Euclidean length, with ε guarding a zero row.
  One program multiplies the joined 256-wide row [x | n] by the whole weight matrix; the other multiplies
  the two 128-wide halves by the two halves of the matrix and adds. The only law between them is that a
  sum over 256 columns is the sum over the first 128 plus the sum over the last 128, which holds in any
  commutative additive monoid: nothing here needs the entries to be finite.
-/
import Idealize.ShloMosaic.PureOps.Ideal
import Idealize.ShloMosaic.Lib.ValueIdx

noncomputable section

open scoped BigOperators

namespace Cert.LinNorm

open Idealize.ShloMosaic Idealize.ShloMosaic.ValueIdx

/-- The guard ε: the f32 nearest to 1e-12, as the extended real its binary word denotes. Both programs
    carry the same word, so its value is never needed. -/
def eps : EReal := Ideal.ofBits .f32 0x2B8CBCCC#32

/-- The affine image of a feature row `xr` and a neighbour row `nr` under the two weight halves
    (indexed output column first) and the bias. -/
def linRow (xr nr : Fin 128 → EReal) (wx wn : Fin 128 → Fin 128 → EReal) (b : Fin 128 → EReal) (j : Fin 128) : EReal :=
  (∑ k : Fin 128, xr k * wx j k + ∑ k : Fin 128, nr k * wn j k) + b j

/-- A row divided by the larger of its Euclidean norm and ε. -/
def normRow (v : Fin 128 → EReal) (j : Fin 128) : EReal :=
  Ideal.div (v j) (max (Ideal.sqrt (∑ j' : Fin 128, v j' * v j')) eps)

/-- One output row. -/
def outRow (xr nr : Fin 128 → EReal) (wx wn : Fin 128 → Fin 128 → EReal) (b : Fin 128 → EReal) : Fin 128 → EReal :=
  normRow (linRow xr nr wx wn b)

/-- Column `k` of the left half of a 256-wide row. -/
abbrev colL (k : Fin 128) : Fin 256 := ⟨k.val, by omega⟩
/-- Column `k` of the right half of a 256-wide row. -/
abbrev colR (k : Fin 128) : Fin 256 := ⟨128 + k.val, by omega⟩

/-- A sum over 256 columns is the sum over the left half plus the sum over the right half. -/
theorem sum_halves (f : Fin 256 → EReal) :
    ∑ k : Fin 256, f k = ∑ k : Fin 128, f (colL k) + ∑ k : Fin 128, f (colR k) :=
  Fin.sum_univ_add (a := 128) (b := 128) f

abbrev SX : Shape := ⟨2, ![100000, 128]⟩
abbrev SW : Shape := ⟨2, ![128, 256]⟩
abbrev SB : Shape := ⟨1, ![128]⟩

/-- The whole result array from the feature array `x`, the aggregated neighbour array `nb`, the weight
    matrix `W` ([out, 2·in]: columns 0–127 act on `x`, columns 128–255 on `nb`) and the bias `b`:
    row `i 0` is the output row of row `i 0` of `x` and of `nb`. -/
def G (x nb : SX.Idx → EReal) (W : SW.Idx → EReal) (b : SB.Idx → EReal) : SX.Idx → EReal := fun i =>
  outRow (fun k => x (ix2 (i 0) k)) (fun k => nb (ix2 (i 0) k))
    (fun j k => W (ix2 j (colL k))) (fun j k => W (ix2 j (colR k))) (fun j => b (ix1 j)) (i 1)

/-- `G` at an index from any five row functions that agree with the arrays' rows there. -/
theorem G_of_rows (x nb : SX.Idx → EReal) (W : SW.Idx → EReal) (b : SB.Idx → EReal) (i : SX.Idx)
    (xr nr : Fin 128 → EReal) (wx wn : Fin 128 → Fin 128 → EReal) (bb : Fin 128 → EReal) (q : Fin 128)
    (h1 : ∀ k, xr k = x (ix2 (i 0) k)) (h2 : ∀ k, nr k = nb (ix2 (i 0) k))
    (h3 : ∀ j k, wx j k = W (ix2 j (colL k))) (h4 : ∀ j k, wn j k = W (ix2 j (colR k)))
    (h5 : ∀ j, bb j = b (ix1 j)) (hq : q = i 1) :
    outRow xr nr wx wn bb q = G x nb W b i := by
  obtain rfl : xr = fun k => x (ix2 (i 0) k) := funext h1
  obtain rfl : nr = fun k => nb (ix2 (i 0) k) := funext h2
  obtain rfl : wx = fun j k => W (ix2 j (colL k)) := funext fun j => funext (h3 j)
  obtain rfl : wn = fun j k => W (ix2 j (colR k)) := funext fun j => funext (h4 j)
  obtain rfl : bb = fun j => b (ix1 j) := funext h5
  subst hq
  rfl

end Cert.LinNorm

end
-- ==== Proof.Payload.lean ====
/-
  The kernel body's one stored value, read at an element (p, q) of its [5000, 128] block, is the row
  function of Spec.lean applied to row p of the two loaded row blocks, to the two loaded [in, out] weight
  blocks read column q, and to the loaded bias row. The roundings to bf16 on the way into the two matrix
  products are the identity on the extended reals; each product into a zero accumulator is the plain sum
  over the 128 contracted columns; the row's sum of squares is a lane sum; the keep-dims column is cast
  and broadcast back across the row.
-/
import proofs.«119986_j52690658788080_1_alg».proof.Proof.Gen.KernelIdeal.Skeleton
import proofs.«119986_j52690658788080_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx Cert.LinNorm

/-! ## The non-pointwise operations of the body, each at an index -/

theorem lhs_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem rhs_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A [5000,128] × [128,128] matrix product into a zero accumulator, at (p, q): the sum over the 128
    contracted columns of row p of the left operand times column q of the right. -/
theorem mm_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact lhs_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (dot_S5000x128_S128x128_S5000x128_1_0_0_1_n_n.rhsIdx_val_of_single rfl _ _).trans hk
      | ⟨1, _⟩ => exact rhs_col _ _)
  rw [el, er]

/-- A lane sum of a [5000,128] block at row p: the sum over the row. -/
theorem rowsum_apply (v : FVec Ideal S5000x128 .f32) (p : Fin 5000) :
    multiReduction (F := Ideal) .add [1] S5000 v 0x00000000#32 reduces_S5000x128_S5000 (.inl rfl) rfl (ix1 p)
      = ∑ k : Fin 128, v (ix2 p k) := by
  refine (Ideal.multiReduction_add_single (a := (1 : Fin S5000x128.rank)) v _ reduces_S5000x128_S5000 _ _ (ix1 p)).trans ?_
  refine Finset.sum_congr rfl fun k _ => congrArg v (funext fun ax => Fin.ext ?_)
  match ax with
  | ⟨0, _⟩ => rfl
  | ⟨1, _⟩ => rfl

/-- A [5000] vector cast to a [5000,1] column reads row p at p. -/
theorem col_cast (v : FVec Ideal S5000 .f32) (p : Fin 5000) (u : Fin 1) :
    shapeCast S5000x1 v shapeCasts_S5000_S5000x1 (ix2 p u) = v (ix1 p) :=
  shapeCast_apply v _ _ _ (by
    have hu : u.val = 0 := by omega
    rw [Shape.rowMajor_val_one, Shape.rowMajor_val_two]
    show p.val = p.val * 1 + u.val
    omega)

/-- A [5000,1] column broadcast across 128 lanes reads (p, q) at (p, 0). -/
theorem col_bcast (v : FVec Ideal S5000x1 .f32) (p : Fin 5000) (q : Fin 128) :
    broadcastTo S5000x128 v broadcasts_S5000x1_S5000x128 (ix2 p q) = v (ix2 p (0 : Fin 1)) := by
  refine broadcastTo_apply v _ (ix2 p q) (ix2 p (0 : Fin 1)) fun ax => ?_
  match ax with
  | ⟨0, _⟩ => show p.val = if (5000 : Nat) = 1 then 0 else p.val; rw [if_neg (by decide)]
  | ⟨1, _⟩ => show (0 : Nat) = if (1 : Nat) = 1 then 0 else q.val; rw [if_pos rfl]

/-! ## The body's value -/

variable (x0 x1 : Vec Ideal S5000x128 .f32) (w0 w1 : Vec Ideal S128x128 .f32) (bb : Vec Ideal S1x128 .f32)

/-- The affine stage of the body: the two products added, plus the bias row broadcast down the block. -/
def affine : FVec Ideal S5000x128 .f32 :=
  addf
    (addf
      (matmul dot_S5000x128_S128x128_S5000x128_1_0_0_1_n_n none (truncf .bf16 x0 bitsLt_bf16_f32)
        (truncf .bf16 (shapeCast S128x128 w0 shapeCasts_S128x128_S128x128) bitsLt_bf16_f32)
        (constant (F := Ideal) S5000x128 .f32 0x00000000#32))
      (matmul dot_S5000x128_S128x128_S5000x128_1_0_0_1_n_n none
        (truncf .bf16 (shapeCast S5000x128 x1 shapeCasts_S5000x128_S5000x128) bitsLt_bf16_f32)
        (truncf .bf16 (shapeCast S128x128 w1 shapeCasts_S128x128_S128x128) bitsLt_bf16_f32)
        (constant (F := Ideal) S5000x128 .f32 0x00000000#32)))
    (broadcastTo S5000x128 (shapeCast S1x128 bb shapeCasts_S1x128_S1x128) broadcasts_S1x128_S5000x128)

theorem affine_apply (p : Fin 5000) (q : Fin 128) :
    affine x0 x1 w0 w1 bb (ix2 p q)
      = linRow (fun k => x0 (ix2 p k)) (fun k => x1 (ix2 p k)) (fun j k => w0 (ix2 k j)) (fun j k => w1 (ix2 k j))
          (fun j => bb (ix2 (0 : Fin 1) j)) q := by
  unfold affine linRow
  simp only [shapeCast_self]
  rw [addf_apply, addf_apply, mm_apply, mm_apply, broadcastTo_1b_ab_apply]
  rfl

/-- The stored value is the affine stage divided, row by row, by the larger of the row's norm and ε. -/
theorem pay_eq :
    k0_pay1 x0 x1 w0 w1 bb
      = divf (affine x0 x1 w0 w1 bb)
          (broadcastTo S5000x128
            (maximumf
              (sqrt (shapeCast S5000x1
                (multiReduction (F := Ideal) .add [1] S5000 (mulf (affine x0 x1 w0 w1 bb) (affine x0 x1 w0 w1 bb)) 0x00000000#32
                  reduces_S5000x128_S5000 (.inl rfl) rfl) shapeCasts_S5000_S5000x1))
              (broadcast S5000x1 (Scalar.ofBits (F := Ideal) .f32 0x2B8CBCCC#32)))
            broadcasts_S5000x1_S5000x128) := rfl

/-- The stored value at (p, q). -/
theorem pay_apply (p : Fin 5000) (q : Fin 128) :
    k0_pay1 x0 x1 w0 w1 bb (ix2 p q)
      = outRow (fun k => x0 (ix2 p k)) (fun k => x1 (ix2 p k)) (fun j k => w0 (ix2 k j)) (fun j k => w1 (ix2 k j))
          (fun j => bb (ix2 (0 : Fin 1) j)) q := by
  rw [pay_eq, divf_apply, col_bcast, maximumf_apply, broadcast_apply]
  show Ideal.div _ (max (Ideal.sqrt (shapeCast S5000x1 _ shapeCasts_S5000_S5000x1 (ix2 p (0 : Fin 1)))) _) = _
  rw [col_cast, rowsum_apply]
  simp only [mulf_apply, affine_apply]
  rfl

end Cert.KernelIdeal.Hand

end
-- ==== Proof.KernelHost.lean ====
/-
  What the kernel's region finds in the arrays that host operations wrote before it: the aggregated
  neighbour array (the scatter-add of the edge-weighted gathered rows, kept as one term of the arguments),
  the two halves of the weight matrix, each sliced off and transposed to [in, out], and the bias as a
  [1, 128] row. Read at an index, the left half at (k, j) is W (j, k), the right half W (j, 128 + k), and
  the bias row at (0, j) is b j.
-/
import proofs.«119986_j52690658788080_1_alg».proof.Proof.Gen.KernelIdeal.Frame
import proofs.«119986_j52690658788080_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.ValueIdx Cert.LinNorm

/-- The aggregated neighbour array as a function of the feature array, the destination and source node
    indices of the edges and the edge weights: source indices wrapped when negative, the source rows
    gathered, each scaled by its edge's weight, and summed into the destination rows of a zero array. -/
def nbr (x0 : (⟨S100000x128, .f32⟩ : BufTy).Contents (Elt Ideal))
    (x1 x2 : (⟨S1600000, .i32⟩ : BufTy).Contents (Elt Ideal))
    (x3 : (⟨S1600000, .f32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x1)
    (mulf
      (broadcastInDim S1600000x128 ![0, 1] bcast_S1600000x1_S1600000x128_0_1
        (broadcastInDim S1600000x1 ![0] bcast_S1600000_S1600000x1_0 x3))
      (Host.gather gather_S100000x128_S1600000x1_S1600000x128_1_0_n_n_0_1_1128 x0
        (broadcastInDim S1600000x1 ![0] bcast_S1600000_S1600000x1_0
          (select
            (cmpi .slt x2 (broadcastInDim S1600000 ![] bcast_S_S1600000 (constantI S_ 32 0#32)))
            (addi x2 (broadcastInDim S1600000 ![] bcast_S_S1600000 (constantI S_ 32 100000#32)))
            x2))))

variable (m : (ℓ : Loc nD τ sig) → Buf (Elt Ideal) ℓ)

/-- The second row-block window's array is the aggregated neighbour array. -/
theorem V_nbr (c : Dev nD) :
    (V m c main_v12 : S100000x128.Idx → EReal)
      = nbr (m ((c : Thread nD τ).loc main_arg0)) (m ((c : Thread nD τ).loc main_arg1)) (m ((c : Thread nD τ).loc main_arg2)) (m ((c : Thread nD τ).loc main_arg3)) := by
  dsimp only [Gen.V, Gen.hostOps0]; after_results; rfl

/-- The first weight window's array: the left half of the weight matrix, transposed. -/
theorem V_wx (c : Dev nD) :
    (V m c main_v15 : S128x128.Idx → EReal)
      = transpose S128x128 [1, 0]
          (extractStridedSlice S128x128 ![0, 0] (m ((c : Thread nD τ).loc main_arg4)) slices_S128x256_S128x128_0_0)
          transposes_S128x128_S128x128_1_0 := by
  dsimp only [Gen.V, Gen.hostOps0]; after_results

/-- The second weight window's array: the right half of the weight matrix, transposed. -/
theorem V_wn (c : Dev nD) :
    (V m c main_v16 : S128x128.Idx → EReal)
      = transpose S128x128 [1, 0]
          (extractStridedSlice S128x128 ![0, 128] (m ((c : Thread nD τ).loc main_arg4)) slices_S128x256_S128x128_0_128)
          transposes_S128x128_S128x128_1_0 := by
  dsimp only [Gen.V, Gen.hostOps0]; after_results

/-- The bias window's array: the bias as one row. -/
theorem V_bias (c : Dev nD) :
    (V m c main_v17 : S1x128.Idx → EReal) = shapeCast S1x128 (m ((c : Thread nD τ).loc main_arg5)) shapeCasts_S128_S1x128 := by
  dsimp only [Gen.V, Gen.hostOps0]; after_results; rfl

/-- The transposed left half at (k, j) is the weight matrix at (j, k). -/
theorem wx_apply (W : S128x256.Idx → EReal) (k j : Fin 128) :
    transpose S128x128 [1, 0] (extractStridedSlice S128x128 ![0, 0] W slices_S128x256_S128x128_0_0)
      transposes_S128x128_S128x128_1_0 (ix2 k j) = W (ix2 j (colL k)) := by
  rw [transpose_ix2_apply]
  exact extractStridedSlice_apply _ W _ (ix2 j k) (ix2 j (colL k)) fun a => match a with
    | ⟨0, _⟩ => by show j.val = 0 + j.val; omega
    | ⟨1, _⟩ => by show k.val = 0 + k.val; omega

/-- The transposed right half at (k, j) is the weight matrix at (j, 128 + k). -/
theorem wn_apply (W : S128x256.Idx → EReal) (k j : Fin 128) :
    transpose S128x128 [1, 0] (extractStridedSlice S128x128 ![0, 128] W slices_S128x256_S128x128_0_128)
      transposes_S128x128_S128x128_1_0 (ix2 k j) = W (ix2 j (colR k)) := by
  rw [transpose_ix2_apply]
  exact extractStridedSlice_apply _ W _ (ix2 j k) (ix2 j (colR k)) fun a => match a with
    | ⟨0, _⟩ => by show j.val = 0 + j.val; omega
    | ⟨1, _⟩ => by show 128 + k.val = 128 + k.val; rfl

end Cert.KernelIdeal.Hand

end
-- ==== Proof.KernelValue.lean ====
/-
  From blocks to the array. The grid has 20 points; point t stages rows 5000·t … 5000·t + 4999 of the
  feature array and of the aggregated neighbour array, the two whole transposed weight halves and the bias
  row, and writes back rows 5000·t … 5000·t + 4999 of the result. What it writes at block element (p, q)
  is the output row of array row 5000·t + p at column q, so each write-back is the block of one
  whole-array function, the 20 blocks tile the result array, and the array ends holding that function.
-/
import proofs.«119986_j52690658788080_1_alg».proof.Proof.Gen.KernelIdeal.Value
import proofs.«119986_j52690658788080_1_alg».proof.Proof.Payload
import proofs.«119986_j52690658788080_1_alg».proof.Proof.KernelHost

noncomputable section

namespace Cert.KernelIdeal.Hand

open Cert.KernelIdeal Cert.KernelIdeal.Gen
open Idealize.ShloMosaic Idealize.ShloMosaic.TcCoe Idealize.SL.Sem Idealize.ShloMosaic.ValueIdx Cert.LinNorm
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The windows' block indices at each of the 20 points: the three row-block windows sit at block (t, 0),
    the two weight halves and the bias row at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

/-- The feature block at point t, element y, is the feature array at row 5000·t + y₀. -/
theorem xblk_apply (c : Dev nD) (t : Fin cfg0.N) (y : S5000x128.Idx) (i : S100000x128.Idx)
    (h0 : (i 0).val = t.val * 5000 + (y 0).val) (h1 : (i 1).val = (y 1).val) :
    (iblk m c 0 t : Vec Ideal S5000x128 .f32) y = ((m ((c : Thread nD τ).loc main_arg0)) : S100000x128.Idx → EReal) i := by
  obtain ⟨e0, e1, -⟩ := block_index t
  refine Eq.trans ?_ (congrFun (V_main_arg0 m c) i)
  unfold iblk
  rw [View.read_apply]
  show V m c main_arg0 _ = V m c main_arg0 i
  refine congrArg (V m c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- Any [100000, 128] array read through the second window's block at point t, element y, is the array at
    row 5000·t + y₀ (stated for an arbitrary array, so that the neighbour array's own term is never opened). -/
theorem rows_read (c : Dev nD) (t : Fin cfg0.N) (A : Buf (Elt Ideal) ((c : Thread nD τ).loc main_v12))
    (y : S5000x128.Idx) (i : S100000x128.Idx)
    (h0 : (i 0).val = t.val * 5000 + (y 0).val) (h1 : (i 1).val = (y 1).val) :
    (((cfg0.win 1).blk t).view.read (Elt Ideal) A : Vec Ideal S5000x128 .f32) y = (A : S100000x128.Idx → EReal) i := by
  obtain ⟨-, -, e0, e1, -⟩ := block_index t
  rw [View.read_apply]
  show A _ = A i
  refine congrArg A (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 128 + 1 * (y 1).val = (i 1).val; rw [e1, h1]; omega

/-- The neighbour block at point t, element y, is the aggregated neighbour array at row 5000·t + y₀. -/
theorem nblk_apply (c : Dev nD) (t : Fin cfg0.N) (y : S5000x128.Idx) (i : S100000x128.Idx)
    (h0 : (i 0).val = t.val * 5000 + (y 0).val) (h1 : (i 1).val = (y 1).val) :
    (iblk m c 1 t : Vec Ideal S5000x128 .f32) y
      = nbr (m ((c : Thread nD τ).loc main_arg0)) (m ((c : Thread nD τ).loc main_arg1)) (m ((c : Thread nD τ).loc main_arg2)) (m ((c : Thread nD τ).loc main_arg3)) i :=
  (rows_read c t (V m c main_v12) y i h0 h1).trans (congrFun (V_nbr m c) i)

/-- The first weight block, at every point, at (k, j): the weight matrix at (j, k). -/
theorem wxblk_apply (c : Dev nD) (t : Fin cfg0.N) (k j : Fin 128) :
    (iblk m c 2 t : Vec Ideal S128x128 .f32) (ix2 k j) = ((m ((c : Thread nD τ).loc main_arg4)) : S128x256.Idx → EReal) (ix2 j (colL k)) := by
  obtain ⟨-, -, -, -, e0, e1, -⟩ := block_index t
  refine Eq.trans ?_ ((congrFun (V_wx m c) (ix2 k j)).trans (wx_apply _ k j))
  unfold iblk
  rw [View.read_apply]
  show V m c main_v15 _ = V m c main_v15 (ix2 k j)
  refine congrArg (V m c main_v15) (funext fun a => Fin.ext ?_)
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The second weight block, at every point, at (k, j): the weight matrix at (j, 128 + k). -/
theorem wnblk_apply (c : Dev nD) (t : Fin cfg0.N) (k j : Fin 128) :
    (iblk m c 3 t : Vec Ideal S128x128 .f32) (ix2 k j) = ((m ((c : Thread nD τ).loc main_arg4)) : S128x256.Idx → EReal) (ix2 j (colR k)) := by
  obtain ⟨-, -, -, -, -, -, e0, e1, -⟩ := block_index t
  refine Eq.trans ?_ ((congrFun (V_wn m c) (ix2 k j)).trans (wn_apply _ k j))
  unfold iblk
  rw [View.read_apply]
  show V m c main_v16 _ = V m c main_v16 (ix2 k j)
  refine congrArg (V m c main_v16) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

/-- The bias block, at every point, at (0, j): the bias at j. -/
theorem bblk_apply (c : Dev nD) (t : Fin cfg0.N) (j : Fin 128) :
    (iblk m c 4 t : Vec Ideal S1x128 .f32) (ix2 (0 : Fin 1) j) = ((m ((c : Thread nD τ).loc main_arg5)) : S128.Idx → EReal) (ix1 j) := by
  obtain ⟨-, -, -, -, -, -, -, -, e0, e1, -⟩ := block_index t
  refine Eq.trans ?_ ((congrFun (V_bias m c) (ix2 (0 : Fin 1) j)).trans (shapeCast_a_1a_apply _ _ 0 j))
  unfold iblk
  rw [View.read_apply]
  show V m c main_v17 _ = V m c main_v17 (ix2 (0 : Fin 1) j)
  refine congrArg (V m c main_v17) (funext fun a => Fin.ext ?_)
  match a with
  | ⟨0, _⟩ => show win0_4.index t (0 : Fin 2) * 1 + 1 * 0 = 0; rw [e0]
  | ⟨1, _⟩ => show win0_4.index t (1 : Fin 2) * 128 + 1 * j.val = j.val; rw [e1]; omega

/-! ## The result array -/

/-- What the result array ends holding: the row function of the arguments and the aggregated neighbours. -/
abbrev result (c : Dev nD) : Buf (Elt Ideal) ((c : Thread nD τ).loc main_v18) :=
  G (m ((c : Thread nD τ).loc main_arg0))
    (nbr (m ((c : Thread nD τ).loc main_arg0)) (m ((c : Thread nD τ).loc main_arg1)) (m ((c : Thread nD τ).loc main_arg2)) (m ((c : Thread nD τ).loc main_arg3)))
    (m ((c : Thread nD τ).loc main_arg4)) (m ((c : Thread nD τ).loc main_arg5))

/-- A [5000, 128] block `P` that agrees, element by element, with rows 5000·t … of an array `R` is what
    the result window reads of `R` through its block at point t (stated for arbitrary `P` and `R`). -/
theorem block_of_rows (c : Dev nD) (t : Fin cfg0.N) (P : Vec Ideal S5000x128 .f32)
    (R : Buf (Elt Ideal) ((c : Thread nD τ).loc main_v18))
    (h : ∀ (y : S5000x128.Idx) (i : S100000x128.Idx), (i 0).val = t.val * 5000 + (y 0).val → (i 1).val = (y 1).val →
      P y = (R : S100000x128.Idx → EReal) i) :
    (cfg0.win 5).cut (grid0.coords t) P = ((cfg0.win 5).blk t).view.read (Elt Ideal) R := by
  obtain ⟨-, -, -, -, -, -, -, -, -, -, e0, e1⟩ := block_index t
  funext y
  rw [View.read_apply]
  show P y = R _
  refine h y _ ?_ ?_
  · show win0_5.index t (0 : Fin 2) * 5000 + 1 * (y 0).val = _; rw [e0]; omega
  · show win0_5.index t (1 : Fin 2) * 128 + 1 * (y 1).val = _; rw [e1]; omega

/-- What point t writes back is block t of `result`. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero zero_off]
  simp only [View.ld_unit_zero (S := S5000x128) zero_off, View.ld_unit_zero (S := S128x128) zero_off,
    View.ld_unit_zero (S := S1x128) zero_off]
  refine block_of_rows c t _ _ fun y i h0 h1 => ?_
  refine (congrArg (k0_pay1 (iblk m c 0 t) (iblk m c 1 t) (iblk m c 2 t) (iblk m c 3 t) (iblk m c 4 t)) (eq_ix2 y)).trans ?_
  refine (pay_apply (iblk m c 0 t) (iblk m c 1 t) (iblk m c 2 t) (iblk m c 3 t) (iblk m c 4 t) (y 0) (y 1)).trans ?_
  exact G_of_rows _ _ _ _ i _ _ _ _ _ (y 1)
    (fun k => xblk_apply m c t (ix2 (y 0) k) (ix2 (i 0) k) h0 rfl)
    (fun k => nblk_apply m c t (ix2 (y 0) k) (ix2 (i 0) k) h0 rfl)
    (fun j k => wxblk_apply m c t k j) (fun j k => wnblk_apply m c t k j) (fun j => bblk_apply m c t j)
    (Fin.ext h1.symm)

/-- An index of the result array is in point t's block iff each coordinate is in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

/-- Every row of the result array lies in the block of the point numbered by the row's quotient by 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := block_index ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e1]; omega

/-- The result array after the run. -/
theorem final (c : Dev nD) : (dats m 0 c).arrAt 5 cfg0.N = result m c :=
  (dats m 0 c).arrAt_eq_of_cover 5 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Hand

end
-- ==== Proof.RefValue.lean ====
/-
  The reference program's result, read index by index, is the row function of Spec.lean applied to the
  argument arrays and to the aggregated neighbour array (the scatter-add stage, kept as one opaque term).
  The joined 256-wide row [x | nb] read at a left column is `x`, at a right column `nb`; the transposed
  weight matrix read at (k, j) is `W` at (j, k); the product's sum over 256 columns splits in two.
-/
import proofs.«119986_j52690658788080_1_alg».proof.Proof.Gen.ReferenceIdeal.Read
import proofs.«119986_j52690658788080_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LinNorm

variable (x0 : (⟨S100000x128, .f32⟩ : BufTy).Contents (Elt Ideal))
  (x1 x2 : (⟨S1600000, .i32⟩ : BufTy).Contents (Elt Ideal))
  (x3 : (⟨S1600000, .f32⟩ : BufTy).Contents (Elt Ideal))
  (x4 : (⟨S128x256, .f32⟩ : BufTy).Contents (Elt Ideal))
  (x5 : (⟨S128, .f32⟩ : BufTy).Contents (Elt Ideal))

/-- The joined row at a left column is the feature array's entry. -/
theorem joined_left (nb : (⟨S100000x128, .f32⟩ : BufTy).Contents (Elt Ideal)) (r : Fin 100000) (k : Fin 128) :
    concatenate S100000x256 1 [⟨S100000x128, x0⟩, ⟨S100000x128, nb⟩] concatenates_S100000x128_S100000x128_S100000x256_d1
      (ix2 r (colL k)) = x0 (ix2 r k) :=
  concatenate_pair_apply_left (t := S100000x256) (s₁ := S100000x128) (s₂ := S100000x128) 1 x0 nb
    concatenates_S100000x128_S100000x128_S100000x256_d1 (ix2 r (colL k)) rfl (ix2 r k)
    (fun b => match b with | ⟨0, _⟩ => rfl | ⟨1, _⟩ => rfl)

/-- The joined row at a right column is the neighbour array's entry. -/
theorem joined_right (nb : (⟨S100000x128, .f32⟩ : BufTy).Contents (Elt Ideal)) (r : Fin 100000) (k : Fin 128) :
    concatenate S100000x256 1 [⟨S100000x128, x0⟩, ⟨S100000x128, nb⟩] concatenates_S100000x128_S100000x128_S100000x256_d1
      (ix2 r (colR k)) = nb (ix2 r k) :=
  concatenate_pair_apply_right (t := S100000x256) (s₁ := S100000x128) (s₂ := S100000x128) 1 x0 nb
    concatenates_S100000x128_S100000x128_S100000x256_d1 (ix2 r (colR k)) rfl rfl (ix2 r k)
    (fun b hb => match b, hb with | ⟨0, _⟩, _ => rfl | ⟨1, _⟩, hb => absurd rfl hb)
    (by show k.val + 128 = 128 + k.val; omega)

theorem lidx_eq (r : Fin 100000) (j : Fin 128) (k : Fin 256) : lidx_main_v15 (ix2 r j) k = ix2 r k :=
  funext fun a => match a with | ⟨0, _⟩ => rfl | ⟨1, _⟩ => rfl
theorem ridx_eq (r : Fin 100000) (j : Fin 128) (k : Fin 256) : idx_main_v14 (ridx_main_v15 (ix2 r j) k) = ix2 j k :=
  funext fun a => match a with | ⟨0, _⟩ => rfl | ⟨1, _⟩ => rfl
theorem bidx_eq (r : Fin 100000) (j : Fin 128) : idx_main_v16 (idx_main_v17 (ix2 r j)) = ix1 j :=
  funext fun a => match a with | ⟨0, _⟩ => rfl
theorem sqidx_eq (r : Fin 100000) (j : Fin 128) (k : Fin 128) :
    idx_main_v20 (idx_main_v21 (idx_main_v25 (ix2 r j))) k = ix2 r k :=
  funext fun a => match a with | ⟨0, _⟩ => rfl | ⟨1, _⟩ => rfl

/-- The affine stage at (r, j): the row function's affine image of row `r`. -/
theorem affine_apply (r : Fin 100000) (j : Fin 128) :
    val_main_v18 (F := Ideal) x0 x1 x2 x3 x4 x5 (ix2 r j)
      = linRow (fun k => x0 (ix2 r k)) (fun k => val_main_v12 (F := Ideal) x0 x1 x2 x3 (ix2 r k))
          (fun j k => x4 (ix2 j (colL k))) (fun j k => x4 (ix2 j (colR k))) (fun j => x5 (ix1 j)) j := by
  rw [val_main_v18_apply, val_main_v15_apply, val_main_v17_apply, val_main_v16_apply, sum_halves, bidx_eq,
    Ideal.addf_def]
  unfold linRow
  refine congrArg₂ (· + ·) (congrArg₂ (· + ·) (Finset.sum_congr rfl fun k _ => ?_) (Finset.sum_congr rfl fun k _ => ?_)) rfl
  · rw [lidx_eq, val_main_v14_apply, ridx_eq]; unfold val_main_v13; rw [joined_left]
  · rw [lidx_eq, val_main_v14_apply, ridx_eq]; unfold val_main_v13; rw [joined_right]

/-- The reference's result is `G` of the arguments and the aggregated neighbour array. -/
theorem result_eq :
    val_main_v26 (F := Ideal) x0 x1 x2 x3 x4 x5 = G x0 (val_main_v12 (F := Ideal) x0 x1 x2 x3) x4 x5 := by
  funext i
  obtain ⟨r, j, rfl⟩ : ∃ (r : Fin 100000) (j : Fin 128), i = ix2 r j := ⟨i 0, i 1, eq_ix2 i⟩
  rw [val_main_v26_apply, val_main_v25_apply, val_main_v24_apply, val_main_v22_apply, val_main_v21_apply,
    val_main_v20_apply, val_main_v23_apply, val_main_cst_2_apply, val_main_cst_1_apply]
  simp only [val_main_v19_apply, sqidx_eq, affine_apply, Ideal.hostDivf_def, Ideal.maximumf_def,
    Ideal.hostUnary_sqrt_def, Ideal.mulf_def, Ideal.ofBits_def, Ideal.ofBits_zero_f32, zero_add]
  rfl

end Cert.ReferenceIdeal.RefValue

end
-- ==== Proof.lean ====
/-
  Neighbour aggregation, a linear layer on [x | neighbours] and row normalisation: the tiled kernel
  against the plain reference, equal on the extended reals.

  Both programs first form the same aggregated neighbour array (edge-weighted source rows summed into
  destination rows) by the same host operations; that array enters the proof as one term, never opened.
  The reference joins each feature row with its neighbour row into 256 columns and multiplies by the whole
  weight matrix; the kernel multiplies the two 128-column halves by the two halves of the matrix and adds.
  A sum over 256 columns is the sum over the first 128 plus the sum over the last 128, so the affine
  stages agree; the bias, the row's sum of squares, its square root, the guard ε (one binary word on both
  sides) and the division are then the same operations of the same values. No step uses finiteness of
  the inputs: the precondition is never opened.

  The kernel side: the body's stored value at a block element is the row function (Payload), each staged
  block is the corresponding rows of its array (KernelValue), the 20 blocks tile the result (KernelValue).
  The reference side: its run's term read index by index is the same row function (RefValue).
  The idealisation rewrote nothing, so that conjunct is trivial; the frames are the generated ones.
-/
import proofs.«119986_j52690658788080_1_alg».proof.Defs
import proofs.«119986_j52690658788080_1_alg».proof.Proof.Gen.Kernel
import proofs.«119986_j52690658788080_1_alg».proof.Proof.Gen.Kernel.Skeleton
import proofs.«119986_j52690658788080_1_alg».proof.Proof.Gen.Kernel.Launch
import proofs.«119986_j52690658788080_1_alg».proof.Proof.Gen.Kernel.Points
import proofs.«119986_j52690658788080_1_alg».proof.Proof.Gen.Kernel.Frame
import proofs.«119986_j52690658788080_1_alg».proof.Proof.Gen.KernelIdeal
import proofs.«119986_j52690658788080_1_alg».proof.Proof.Gen.KernelIdeal.Skeleton
import proofs.«119986_j52690658788080_1_alg».proof.Proof.Gen.KernelIdeal.Launch
import proofs.«119986_j52690658788080_1_alg».proof.Proof.Gen.KernelIdeal.Points
import proofs.«119986_j52690658788080_1_alg».proof.Proof.Gen.KernelIdeal.Frame
import proofs.«119986_j52690658788080_1_alg».proof.Proof.Gen.ReferenceIdeal
import proofs.«119986_j52690658788080_1_alg».proof.Proof.Gen.Pre_finite_inputs
import proofs.«119986_j52690658788080_1_alg».proof.Proof.Gen.KernelIdeal.Value
import proofs.«119986_j52690658788080_1_alg».proof.Proof.Gen.ReferenceIdeal.Run
import proofs.«119986_j52690658788080_1_alg».proof.Proof.Gen.ReferenceIdeal.Read
import proofs.«119986_j52690658788080_1_alg».proof.Proof.KernelValue
import proofs.«119986_j52690658788080_1_alg».proof.Proof.RefValue
import Idealize.ShloMosaic.Adequacy
import Idealize.ShloMosaic.Init

noncomputable section

namespace Cert.Proof

open Idealize.ShloMosaic Idealize.ShloMosaic.TcCoe Idealize.SL.Sem

/-- The kernel program's aggregated neighbour array and the reference's scatter-add stage are the same
    operations of the same arguments. -/
theorem nbr_eq (x0 : (⟨Cert.KernelIdeal.S100000x128, .f32⟩ : BufTy).Contents (Elt Ideal))
    (x1 x2 : (⟨Cert.KernelIdeal.S1600000, .i32⟩ : BufTy).Contents (Elt Ideal))
    (x3 : (⟨Cert.KernelIdeal.S1600000, .f32⟩ : BufTy).Contents (Elt Ideal)) :
    Cert.KernelIdeal.Hand.nbr x0 x1 x2 x3 = Cert.ReferenceIdeal.Read.val_main_v12 (F := Ideal) x0 x1 x2 x3 := by
  unfold Cert.KernelIdeal.Hand.nbr Cert.ReferenceIdeal.Read.val_main_v12 Cert.ReferenceIdeal.Read.val_main_v11
    Cert.ReferenceIdeal.Read.val_main_v10 Cert.ReferenceIdeal.Read.val_main_cst Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_c Cert.ReferenceIdeal.Read.val_main_c_0
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealised programs end with the row function of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v26_eq, Cert.ReferenceIdeal.RefValue.result_eq, a0, a1, a2, a3, a4, a5,
    ← nbr_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
